-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S16x1024 : S_.BroadcastsInDim S16x1024 (![] : Fin 0 → Fin S16x1024.rank)
  reducesTo_S16x1024_S_d0_1 : S16x1024.ReducesTo [0, 1] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg4 : FVec F S1024x16 .f32) (main_v13 : IVec S_ 1) (main_v16 : IVec S16x1024 1) : IVec S_ 1 :=
  let main_c_5 : IVec S_ 1 := constantI S_ 1 1#1
  let main_v17 : IVec S_ 1 := (fun x v => Host.reduce IntOp.andi x v reducesTo_S16x1024_S_d0_1 h_S_) main_v16 main_c_5
  let main_v18 : IVec S_ 1 := andi main_v13 main_v17
  let main_v19 : FVec F S1024x16 .f32 := Host.absf main_arg4
  let main_cst_6 : FVec F S_ .f32 := constant S_ .f32 0x7F800000#32
  let main_v20 : FVec F S1024x16 .f32 := broadcastInDim S1024x16 ![] bcast_S_S1024x16 main_cst_6
  let main_v21 : IVec S1024x16 1 := cmpf .olt main_v19 main_v20
  let main_c_7 : IVec S_ 1 := constantI S_ 1 1#1
  let main_v22 : IVec S_ 1 := (fun x v => Host.reduce IntOp.andi x v reducesTo_S1024x16_S_d0_1 h_S_) main_v21 main_c_7
  let main_v23 : IVec S_ 1 := andi main_v18 main_v22
  main_v23

def fn {F : FTy → Type} [FloatOps F] (main_arg0 : FVec F S8x4096x1024 .f32) (main_arg1 : FVec F S1024x1024 .f32) (main_arg2 : FVec F S1024 .f32) (main_arg3 : FVec F S16x1024 .f32) (main_arg4 : FVec F S1024x16 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S16x1024 .f32 := Host.absf main_arg3
  let main_cst_4 : FVec F S_ .f32 := constant S_ .f32 0x7F800000#32
  let main_v15 : FVec F S16x1024 .f32 := broadcastInDim S16x1024 ![] bcast_S_S16x1024 main_cst_4
  let main_v16 : IVec S16x1024 1 := cmpf .olt main_v14 main_v15
  fn_part1 (F := F) main_arg4 main_v13 main_v16
-- ==== Kernel.lean ====
abbrev S8x4096x1024 : Shape := ⟨3, ![8, 4096, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S32768x1024 : Shape := ⟨2, ![32768, 1024]⟩
abbrev S1x1024 : Shape := ⟨2, ![1, 1024]⟩
abbrev S_ : Shape := ⟨0, ![]⟩

abbrev nBuf : Space → Nat
  | .hbm => 15
  | .vmem => 6
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S1024x16, .f32⟩
  | .hbm, ⟨5, _⟩ => ⟨S32768x1024, .f32⟩
  | .hbm, ⟨6, _⟩ => ⟨S1x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .bf16⟩
  | .hbm, ⟨13, _⟩ => ⟨S32768x1024, .f32⟩
  | .hbm, ⟨14, _⟩ => ⟨S8x4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x4096x1024_S32768x1024 : S8x4096x1024.ShapeCasts S32768x1024
  shapeCasts_S1024_S1x1024 : S1024.ShapeCasts S1x1024
  bcast_S_S1024x1024 : S_.BroadcastsInDim S1024x1024 (![] : Fin 0 → Fin S1024x1024.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S32768x1024_S8x4096x1024 : S32768x1024.ShapeCasts S8x4096x1024
  dot_S1024x16_S16x1024_S1024x1024_1_0_0_1_n_n_wf : DotDims.WF S1024x16 S16x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S32768x1024.size a
  hwx0_3 : ∀ i : grid0.Coords, EltTy.bits .f32 = 32 ∨ (Rect.block (s := S32768x1024) S1024x1024.size (cc0_transform_3 i) (hinb0_3 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S1024 : Shape := ⟨1, ![1024]⟩
abbrev S16x1024 : Shape := ⟨2, ![16, 1024]⟩
abbrev S1024x16 : Shape := ⟨2, ![1024, 16]⟩
abbrev S1x1x1024 : Shape := ⟨3, ![1, 1, 1024]⟩
abbrev S8x4096x16 : Shape := ⟨3, ![8, 4096, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S1024x16, .f32⟩
  | .hbm, ⟨5, _⟩ => ⟨S8x4096x1024, .f32⟩
  | .hbm, ⟨6, _⟩ => ⟨S1x1x1024, .f32⟩
  | .hbm, ⟨7, _⟩ => ⟨S8x4096x1024, .f32⟩
  | .hbm, ⟨8, _⟩ => ⟨S8x4096x1024, .f32⟩
  | .hbm, ⟨9, _⟩ => ⟨S8x4096x16, .f32⟩
  | .hbm, ⟨10, _⟩ => ⟨S8x4096x1024, .f32⟩
  | .hbm, ⟨11, _⟩ => ⟨S_, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S_S8x4096x1024 : S_.BroadcastsInDim S8x4096x1024 (![] : Fin 0 → Fin S8x4096x1024.rank)
  dot_S8x4096x1024_S1024x1024_S8x4096x1024_2_1_01_0_n_n_wf : DotDims.WF S8x4096x1024 S1024x1024 S8x4096x1024 [2] [1] [0, 1] [0] [] []
  dot_S8x4096x1024_S16x1024_S8x4096x16_2_1_01_0_n_n_wf : DotDims.WF S8x4096x1024 S16x1024 S8x4096x16 [2] [1] [0, 1] [0] [] []
  dot_S8x4096x16_S1024x16_S8x4096x1024_2_1_01_0_n_n_wf : DotDims.WF S8x4096x16 S1024x16 S8x4096x1024 [2] [1] [0, 1] [0] [] []

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x4096x1024_S16x1024_S8x4096x16_2_1_01_0_n_n : DotDims S8x4096x1024 S16x1024 S8x4096x16 where
  lhsContracting := [2]
  rhsContracting := [1]
  lhsNonContracting := [0, 1]
  rhsNonContracting := [0]
  lhsBatch := []
  rhsBatch := []
  wf := dot_S8x4096x1024_S16x1024_S8x4096x16_2_1_01_0_n_n_wf
def dot_S8x4096x16_S1024x16_S8x4096x1024_2_1_01_0_n_n : DotDims S8x4096x16 S1024x16 S8x4096x1024 where
  lhsContracting := [2]
  rhsContracting := [1]
  lhsNonContracting := [0, 1]
  rhsNonContracting := [0]
  lhsBatch := []
  rhsBatch := []
  wf := dot_S8x4096x16_S1024x16_S8x4096x1024_2_1_01_0_n_n_wf

class Facts : Prop extends Facts₀ where

variable [Facts]
-- ==== Proof.Finite.lean ====
/-
  The precondition, read: every entry of every argument array is a real number.

  The claim's precondition says, of each of the five float arguments, that |x| < +inf at every index (one
  reduction by "and" per array, the five results joined by "and"). On the extended reals |x| = max x (-x), which is
  +inf at both infinities, so the strict comparison with +inf leaves exactly the reals.
-/
import proofs.«138152_j52012053954937_2_alg».proof.Pre_finite_inputs
import Idealize.ShloMosaic.PureOps.Ideal
import Idealize.ShloMosaic.Lib.ValueIdx
import Idealize.ShloMosaic.Lib.ReduceAll

noncomputable section

open Idealize.ShloMosaic Idealize.ShloMosaic.ValueIdx

namespace Cert.FiniteArgs

/-- The scalar shape has one index. -/
instance : Subsingleton (⟨0, ![]⟩ : Shape).Idx := ⟨fun _ _ => funext fun d => d.elim0⟩

/-- The word the precondition compares against denotes +inf. -/
theorem inf_word : Ideal.ofBits .f32 0x7F800000#32 = (⊤ : EReal) := by simp [Ideal.ofBits, Ideal.ieee]

/-- An extended real whose absolute value is strictly below +inf is a real. -/
theorem real_of_abs_lt_inf (x : EReal) (h : Ideal.cmp .olt (max x (-x)) (Ideal.ofBits .f32 0x7F800000#32) = 1#1) :
    ∃ r : ℝ, x = (r : EReal) := by
  rw [inf_word] at h
  induction x using EReal.rec with
  | bot => simp [Ideal.cmp] at h
  | top => simp [Ideal.cmp] at h
  | coe r => exact ⟨r, rfl⟩

/-- One array's conjunct: "all |a| < +inf" gives a real at every index of `a`, whatever its shape. -/
theorem all_real {s : Shape} {axes : List (Fin s.rank)} (a : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi (cmpf .olt (Host.absf a) (broadcastInDim s ![] hb (constant ⟨0, ![]⟩ .f32 0x7F800000#32)))
        (constantI ⟨0, ![]⟩ 1 1#1) hr hu ix0 = 1#1) (i : s.Idx) : ∃ r : ℝ, a i = (r : EReal) :=
  real_of_abs_lt_inf (a i) (Host.reduce_andi_all _ _ hr hu ix0 e i)

open Cert.Pre_finite_inputs in
/-- The whole precondition: the five conjuncts split, each read by `all_real`. -/
theorem reals_of_pre [Cert.Pre_finite_inputs.Facts] (a0 : FVec Ideal S8x4096x1024 .f32) (a1 : FVec Ideal S1024x1024 .f32)
    (a2 : FVec Ideal S1024 .f32) (a3 : FVec Ideal S16x1024 .f32) (a4 : FVec Ideal S1024x16 .f32)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  have h0 := congrFun h ix0
  dsimp only [Cert.Pre_finite_inputs.fn, Cert.Pre_finite_inputs.fn_part1] at h0
  obtain ⟨h0123, e4⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨all_real a0 _ _ _ e0, all_real a1 _ _ _ e1, all_real a2 _ _ _ e2, all_real a3 _ _ _ e3, all_real a4 _ _ _ e4⟩

end Cert.FiniteArgs

end
-- ==== Proof.LibLowRankFold.lean ====
/-
  A low-rank update folded into a weight before a product, against the same update applied after the product.

  For real numbers  x k, w k, a r k, b r, c  (k over one finite index type, r over another) and any extended real β,

      (∑ k, x k * (w k + c * ∑ r, b r * a r k)) + β  =  ((∑ k, x k * w k) + β) + (∑ r, (∑ k, x k * a r k) * b r) * c.

  Over the reals this is distributivity of the product over both sums and an exchange of the two summations. On the
  extended reals distributivity fails at the infinities, so the factors are assumed to be (coercions of) reals; the
  added term β is only moved across a sum of two terms, which needs commutativity and associativity of addition and
  nothing else, so β may be any extended real.
-/
import Mathlib.Data.EReal.Basic
import Mathlib.Data.EReal.Operations
import Mathlib.Algebra.BigOperators.Ring.Finset
import Mathlib.Algebra.BigOperators.Group.Finset.Sigma
import Mathlib.Tactic.Ring

open scoped BigOperators

namespace LowRankFold

/-- The coercion from the reals to the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals: distribute the product over the inner sum, exchange the two sums. -/
theorem fold_real {κ ρ : Type*} [Fintype κ] [Fintype ρ] (x w : κ → ℝ) (a : ρ → κ → ℝ) (b : ρ → ℝ) (c : ℝ) :
    ∑ k, x k * (w k + c * ∑ r, b r * a r k) = (∑ k, x k * w k) + (∑ r, (∑ k, x k * a r k) * b r) * c := by
  simp only [mul_add, Finset.sum_add_distrib]
  congr 1
  simp only [Finset.mul_sum, Finset.sum_mul]
  rw [Finset.sum_comm]
  exact Finset.sum_congr rfl fun r _ => Finset.sum_congr rfl fun k _ => by ring

/-- The law on the extended reals, every factor a real, the added term β arbitrary. -/
theorem fold_ereal {κ ρ : Type*} [Fintype κ] [Fintype ρ] (x w : κ → EReal) (a : ρ → κ → EReal) (b : ρ → EReal) (c β : EReal)
    (hx : ∀ k, ∃ y : ℝ, x k = (y : EReal)) (hw : ∀ k, ∃ y : ℝ, w k = (y : EReal))
    (ha : ∀ r k, ∃ y : ℝ, a r k = (y : EReal)) (hb : ∀ r, ∃ y : ℝ, b r = (y : EReal)) (hc : ∃ y : ℝ, c = (y : EReal)) :
    (∑ k, x k * (w k + c * ∑ r, b r * a r k)) + β
      = ((∑ k, x k * w k) + β) + (∑ r, (∑ k, x k * a r k) * b r) * c := by
  choose x' hx using hx
  choose w' hw using hw
  choose a' ha using ha
  choose b' hb using hb
  obtain ⟨c', rfl⟩ := hc
  simp only [hx, hw, ha, hb, ← EReal.coe_mul, ← EReal.coe_add, ← coe_sum]
  rw [fold_real x' w' a' b' c', EReal.coe_add, add_right_comm]

end LowRankFold
-- ==== Proof.Spec.lean ====
/-
  The result both programs compute, as one function of the five argument arrays, index by index.

  With x of shape [8, 4096, 1024], W of [1024, 1024], bias of [1024], A of [16, 1024], B of [1024, 16] and the
  scaling constant c (the float word 0x3F800000), entry (b, s, o) of the result is

      ( ∑ k < 1024,  x[b, s, k] * ( W[o, k] + c * ∑ r < 16,  B[o, r] * A[r, k] ) )  +  bias[o].

  This is the form with the rank-16 update folded into the weight first. The same update applied after the product,
  (∑ k, x[b,s,k] * W[o,k] + bias[o]) + (∑ r, (∑ k, x[b,s,k] * A[r,k]) * B[o,r]) * c, is equal to it whenever every
  entry of the arrays is a real number (`unfolded_eq`, by the law of LibLowRankFold).
-/
import Idealize.ShloMosaic.PureOps.Ideal
import Idealize.ShloMosaic.Lib.ValueIdx
import proofs.«138152_j52012053954937_2_alg».proof.Proof.LibLowRankFold

noncomputable section

open Idealize.ShloMosaic Idealize.ShloMosaic.ValueIdx

namespace Cert.Spec

/-- The scaling constant, kept as its float word: it is the same word in both programs. -/
abbrev scale : EReal := Ideal.ofBits .f32 0x3F800000#32

/-- The scaling constant is a real number (the word denotes 1). -/
theorem scale_real : ∃ y : ℝ, scale = (y : EReal) := ⟨1, by simp [scale, Ideal.ofBits, Ideal.ieee, -EReal.coe_mul]; norm_num⟩

/-- Entry (b, s, o) of the result, the update folded into the weight. -/
def G (x : (⟨3, ![8, 4096, 1024]⟩ : Shape).Idx → EReal) (W : (⟨2, ![1024, 1024]⟩ : Shape).Idx → EReal)
    (bias : (⟨1, ![1024]⟩ : Shape).Idx → EReal) (A : (⟨2, ![16, 1024]⟩ : Shape).Idx → EReal)
    (B : (⟨2, ![1024, 16]⟩ : Shape).Idx → EReal) : (⟨3, ![8, 4096, 1024]⟩ : Shape).Idx → EReal := fun i =>
  (∑ k : Fin 1024, x (ix3 (n0 := 8) (n1 := 4096) (i 0) (i 1) k)
      * (W (ix2 (n0 := 1024) (i 2) k) + scale * ∑ r : Fin 16, B (ix2 (n0 := 1024) (i 2) r) * A (ix2 r k)))
    + bias (ix1 (n := 1024) (i 2))

/-- The same entry with the update applied after the product: equal to `G` when every entry is a real. -/
theorem unfolded_eq (x : (⟨3, ![8, 4096, 1024]⟩ : Shape).Idx → EReal) (W : (⟨2, ![1024, 1024]⟩ : Shape).Idx → EReal)
    (bias : (⟨1, ![1024]⟩ : Shape).Idx → EReal) (A : (⟨2, ![16, 1024]⟩ : Shape).Idx → EReal)
    (B : (⟨2, ![1024, 16]⟩ : Shape).Idx → EReal)
    (hx : ∀ i, ∃ y : ℝ, x i = (y : EReal)) (hW : ∀ i, ∃ y : ℝ, W i = (y : EReal))
    (hA : ∀ i, ∃ y : ℝ, A i = (y : EReal)) (hB : ∀ i, ∃ y : ℝ, B i = (y : EReal))
    (i : (⟨3, ![8, 4096, 1024]⟩ : Shape).Idx) :
    ((∑ k : Fin 1024, x (ix3 (n0 := 8) (n1 := 4096) (i 0) (i 1) k) * W (ix2 (n0 := 1024) (i 2) k)) + bias (ix1 (n := 1024) (i 2)))
      + (∑ r : Fin 16, (∑ k : Fin 1024, x (ix3 (n0 := 8) (n1 := 4096) (i 0) (i 1) k) * A (ix2 r k)) * B (ix2 (n0 := 1024) (i 2) r)) * scale
      = G x W bias A B i :=
  (LowRankFold.fold_ereal (fun k : Fin 1024 => x (ix3 (n0 := 8) (n1 := 4096) (i 0) (i 1) k)) (fun k => W (ix2 (n0 := 1024) (i 2) k))
    (fun (r : Fin 16) k => A (ix2 r k)) (fun r => B (ix2 (n0 := 1024) (i 2) r)) scale (bias (ix1 (n := 1024) (i 2)))
    (fun _ => hx _) (fun _ => hW _) (fun _ _ => hA _) (fun _ => hB _) scale_real).symm

end Cert.Spec

end
-- ==== Proof.RefSide.lean ====
/-
  The reference computes the specification.

  The reference forms  x·Wᵀ + bias  and, separately,  ((x·Aᵀ)·Bᵀ) * c,  and adds the two. Reading each of its ten
  operations at an index (the generated read-at-an-index lemmas) leaves, at entry (b, s, o),

      (∑ k, x[b,s,k] * W[o,k] + bias[o]) + (∑ r, (∑ k, x[b,s,k] * A[r,k]) * B[o,r]) * c,

  which is the specification's entry when all entries are real (`Cert.Spec.unfolded_eq`).
-/
import proofs.«138152_j52012053954937_2_alg».proof.Proof.Gen.ReferenceIdeal.Read
import proofs.«138152_j52012053954937_2_alg».proof.Proof.Spec

noncomputable section

open Idealize.ShloMosaic Idealize.ShloMosaic.ValueIdx

namespace Cert.RefSide

open Cert.ReferenceIdeal Cert.ReferenceIdeal.Gen Cert.ReferenceIdeal.Read

/-- The reference's result, as the generated stage `val_main_v8`, is the specification `G` of the same arrays,
    provided the entries of x, W, A and B are real numbers. -/
theorem result_eq (x : (⟨S8x4096x1024, .f32⟩ : BufTy).Contents (Elt Ideal)) (W : (⟨S1024x1024, .f32⟩ : BufTy).Contents (Elt Ideal))
    (bias : (⟨S1024, .f32⟩ : BufTy).Contents (Elt Ideal)) (A : (⟨S16x1024, .f32⟩ : BufTy).Contents (Elt Ideal))
    (B : (⟨S1024x16, .f32⟩ : BufTy).Contents (Elt Ideal))
    (hx : ∀ i, ∃ y : ℝ, x i = (y : EReal)) (hW : ∀ i, ∃ y : ℝ, W i = (y : EReal))
    (hA : ∀ i, ∃ y : ℝ, A i = (y : EReal)) (hB : ∀ i, ∃ y : ℝ, B i = (y : EReal)) :
    val_main_v8 (F := Ideal) x W bias A B = Cert.Spec.G x W bias A B := by
  funext i
  -- the index maps the generated lemmas compose are the coordinates themselves
  have e0l : ∀ k, lidx_main_v0 i k = ix3 (n0 := 8) (n1 := 4096) (i 0) (i 1) k := fun k =>
    funext fun a => Fin.ext (by match a with | ⟨0, _⟩ => rfl | ⟨1, _⟩ => rfl | ⟨2, _⟩ => rfl)
  have e0r : ∀ k, ridx_main_v0 i k = ix2 (n0 := 1024) (i 2) k := fun k =>
    funext fun a => Fin.ext (by match a with | ⟨0, _⟩ => rfl | ⟨1, _⟩ => rfl)
  have eb : idx_main_v1 (idx_main_v2 i) = ix1 (n := 1024) (i 2) :=
    funext fun a => Fin.ext (by match a with | ⟨0, _⟩ => rfl)
  have e4l : ∀ (r : Fin 16) k, lidx_main_v4 (lidx_main_v5 i r) k = ix3 (n0 := 8) (n1 := 4096) (i 0) (i 1) k := fun r k =>
    funext fun a => Fin.ext (by match a with | ⟨0, _⟩ => rfl | ⟨1, _⟩ => rfl | ⟨2, _⟩ => rfl)
  have e4r : ∀ (r : Fin 16) k, ridx_main_v4 (lidx_main_v5 i r) k = ix2 r k := fun r k =>
    funext fun a => Fin.ext (by match a with | ⟨0, _⟩ => rfl | ⟨1, _⟩ => rfl)
  have e5r : ∀ r : Fin 16, ridx_main_v5 i r = ix2 (n0 := 1024) (i 2) r := fun r =>
    funext fun a => Fin.ext (by match a with | ⟨0, _⟩ => rfl | ⟨1, _⟩ => rfl)
  rw [val_main_v8_apply, val_main_v3_apply, val_main_v0_apply, val_main_v2_apply, val_main_v1_apply,
    val_main_v7_apply, val_main_v5_apply, val_main_v6_apply, val_main_cst_apply]
  simp only [val_main_v4_apply, e0l, e0r, eb, e4l, e4r, e5r, Ideal.addf_def, Ideal.mulf_def, Ideal.ofBits_def]
  exact Cert.Spec.unfolded_eq x W bias A B hx hW hA hB i

end Cert.RefSide

end
-- ==== Proof.Payload.lean ====
/-
  What the kernel body stores, at an index.

  At a grid point the body loads a [1024, 1024] block X of the flattened input, the whole folded weight Wf
  ([1024, 1024], rows indexed by the output feature) and the bias row b1 ([1, 1024]), and stores

      X ·(contracting the second axis of both)· Wf  +  b1 broadcast down the rows.

  Read at (p, n) on the extended reals: the changes of float format are the identity, the product into a zero
  accumulator is the plain sum, so the stored entry is  (∑ k < 1024, X[p, k] * Wf[n, k]) + b1[0, n].
-/
import proofs.«138152_j52012053954937_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelSide

open Cert.KernelIdeal Cert.KernelIdeal.Gen

/-! ## The product's operand indices, coordinate by coordinate -/

theorem lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem lhs_contr (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
theorem rhs_contr (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product into a zero accumulator, both operands contracted along their second axis, at (p, n):
    the sum over k of left[p, k] * right[n, k]. -/
theorem product_apply (l r : FVec Ideal S1024x1024 .bf16) (p n : Fin 1024) :
    matmul dot_S1024x1024_S1024x1024_S1024x1024_1_1_0_0_n_n none l r (constant (F := Ideal) S1024x1024 .f32 0x00000000#32) (ix2 p n)
      = ∑ k : Fin 1024, l (ix2 p k) * r (ix2 n k) := by
  simp only [matmul]
  rw [Ideal.matmul_constant_zero_apply,
    ← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p n) ((contrEquiv1 dot_S1024x1024_S1024x1024_S1024x1024_1_1_0_0_n_n 1024 rfl rfl).symm k) = ix2 p k :=
    funext fun a => Fin.ext (by
      match a with
      | ⟨0, _⟩ => exact lhs_row _ _
      | ⟨1, _⟩ => exact (lhs_contr _ _).trans hk)
  have er : dot_S1024x1024_S1024x1024_S1024x1024_1_1_0_0_n_n.rhsIdx (ix2 p n) ((contrEquiv1 dot_S1024x1024_S1024x1024_S1024x1024_1_1_0_0_n_n 1024 rfl rfl).symm k) = ix2 n k :=
    funext fun a => Fin.ext (by
      match a with
      | ⟨0, _⟩ => exact rhs_row _ _
      | ⟨1, _⟩ => exact (rhs_contr _ _).trans hk)
  rw [el, er]

/-- The stored block at (p, n): the row of X against the row n of the weight, plus the bias at n. -/
theorem stored_apply (x0 : Vec Ideal S1024x1024 .f32) (x1 : Vec Ideal S1024x1024 .bf16) (x2 : Vec Ideal S1x1024 .f32)
    (p n : Fin 1024) :
    k0_pay1 (F := Ideal) x0 x1 x2 (ix2 p n)
      = (∑ k : Fin 1024, x0 (ix2 p k) * x1 (ix2 n k)) + x2 (ix2 (0 : Fin 1) n) := by
  unfold k0_pay1
  simp only [shapeCast_self]
  refine (addf_apply _ _ _).trans ?_
  refine congrArg₂ (· + ·) ((product_apply _ _ p n).trans ?_) (broadcastTo_1b_ab_apply x2 _ p n)
  rfl

end Cert.KernelSide

end
-- ==== Proof.Blocks.lean ====
/-
  From what each grid point writes back to the whole flattened result.

  The grid has 32 points; point t writes rows 1024·t … 1024·t + 1023 of the [32768, 1024] result, all 1024 columns.
  With X the flattened input, Wf the folded weight and b1 the bias row as the region finds them, the result is

      rows X Wf b1 (P, n) = (∑ k < 1024, X[P, k] * Wf[n, k]) + b1[0, n].

  Point t's block of X is rows 1024·t …, the same rows as the output block; Wf and b1 are fetched whole at every
  point. So what point t writes back is block t of `rows`, and since every row P lies in block P / 1024 the 32
  blocks cover the array: after the run the array is `rows`.
-/
import proofs.«138152_j52012053954937_2_alg».proof.Proof.Gen.KernelIdeal.Frame
import proofs.«138152_j52012053954937_2_alg».proof.Proof.Payload
import Idealize.ShloMosaic.Lib.Pipeline.Value

noncomputable section

open Idealize.ShloMosaic Idealize.ShloMosaic.TcCoe Idealize.SL.Sem Idealize.ShloMosaic.ValueIdx
open Idealize.ShloMosaic.Pipeline (Dat)

namespace Cert.KernelSide

open Cert.KernelIdeal Cert.KernelIdeal.Gen

variable (m : (ℓ : Loc nD τ sig) → Buf (Elt Ideal) ℓ)

/-- The flattened result as one function of the three arrays the region reads. -/
def rows (X : S32768x1024.Idx → EReal) (Wf : S1024x1024.Idx → EReal) (b1 : S1x1024.Idx → EReal) : S32768x1024.Idx → EReal :=
  fun j => (∑ k : Fin 1024, X (ix2 (n0 := 32768) (j 0) k) * Wf (ix2 (n0 := 1024) (j 1) k)) + b1 (ix2 (0 : Fin 1) (j 1))

theorem zero_offsets : (![0, 0] : Fin 2 → Nat) = fun _ => 0 := funext fun a => by fin_cases a <;> rfl

/-- What the body stores at (p, n) is `rows` at an array index whose row of X, row of Wf and bias entry are the
    block's (stated over variables: the blocks are substituted afterwards). -/
theorem stored_eq_rows (X : S32768x1024.Idx → EReal) (Wf : S1024x1024.Idx → EReal) (b1 : S1x1024.Idx → EReal)
    (x0 : Vec Ideal S1024x1024 .f32) (x1 : Vec Ideal S1024x1024 .bf16) (x2 : Vec Ideal S1x1024 .f32)
    (p n : Fin 1024) (i : S32768x1024.Idx)
    (h0 : ∀ k : Fin 1024, x0 (ix2 p k) = X (ix2 (n0 := 32768) (i 0) k))
    (h1 : ∀ k : Fin 1024, x1 (ix2 n k) = Wf (ix2 (n0 := 1024) (i 1) k))
    (h2 : x2 (ix2 (0 : Fin 1) n) = b1 (ix2 (0 : Fin 1) (i 1))) :
    k0_pay1 (F := Ideal) x0 x1 x2 (ix2 p n) = rows X Wf b1 i := by
  rw [stored_apply]
  unfold rows
  simp only [h0, h1, h2]

/-- The printed index maps over the 32 points: the input and the output move together down the rows; the weight and
    the bias stay at block (0, 0). -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of `rows` of the arrays as the region finds them. -/
theorem flushed_eq (c : Dev nD) (t : Fin cfg0.N) :
    (dats m 0 c).flushed 3 t
      = ((cfg0.win 3).blk t).view.read (Elt Ideal) (rows (V m c main_v0) (V m c main_v6) (V m c main_v1)) := by
  show (cfg0.win 3).cut (grid0.coords t) ((dats m 0 c).after 3 t) = _
  rw [after0_3]
  unfold out0_3
  rw [View.canon_unit_zero zero_offsets]
  simp only [View.ld_unit_zero (S := S1024x1024) zero_offsets, View.ld_unit_zero (S := S1x1024) zero_offsets]
  obtain ⟨e00, e01, e10, e11, e20, e21, e30, e31⟩ := index_maps t
  funext j
  obtain ⟨p, n, rfl⟩ : ∃ (p n : Fin 1024), j = ix2 p n := ⟨j 0, j 1, eq_ix2 j⟩
  show k0_pay1 (F := Ideal) (iblk m c 0 t) (iblk m c 1 t) (iblk m c 2 t) (ix2 p n)
    = rows (V m c main_v0) (V m c main_v6) (V m c main_v1) (((cfg0.win 3).blk t).view.emb (ix2 p n))
  refine stored_eq_rows _ _ _ _ _ _ p n _ (fun k => ?_) (fun k => ?_) ?_
  · show V m c main_v0 (((cfg0.win 0).blk t).view.emb (ix2 p k)) = V m c main_v0 _
    refine congrArg (V m c main_v0) (funext fun a => Fin.ext ?_)
    match a with
    | ⟨0, _⟩ =>
      show win0_0.index t (0 : Fin 2) * 1024 + 1 * p.val = win0_3.index t (0 : Fin 2) * 1024 + 1 * p.val
      omega
    | ⟨1, _⟩ =>
      show win0_0.index t (1 : Fin 2) * 1024 + 1 * k.val = k.val
      omega
  · show V m c main_v6 (((cfg0.win 1).blk t).view.emb (ix2 n k)) = V m c main_v6 _
    refine congrArg (V m c main_v6) (funext fun a => Fin.ext ?_)
    match a with
    | ⟨0, _⟩ =>
      show win0_1.index t (0 : Fin 2) * 1024 + 1 * n.val = win0_3.index t (1 : Fin 2) * 1024 + 1 * n.val
      omega
    | ⟨1, _⟩ =>
      show win0_1.index t (1 : Fin 2) * 1024 + 1 * k.val = k.val
      omega
  · show V m c main_v1 (((cfg0.win 2).blk t).view.emb (ix2 (0 : Fin 1) n)) = V m c main_v1 _
    refine congrArg (V m c main_v1) (funext fun a => Fin.ext ?_)
    match a with
    | ⟨0, _⟩ =>
      show win0_2.index t (0 : Fin 2) * 1 + 1 * 0 = 0
      omega
    | ⟨1, _⟩ =>
      show win0_2.index t (1 : Fin 2) * 1024 + 1 * n.val = win0_3.index t (1 : Fin 2) * 1024 + 1 * n.val
      omega

/-- An index of the result lies in point t's block iff each coordinate lies in the block's range on its axis. -/
theorem mem_block (t : Fin cfg0.N) (i : S32768x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v7).slice (win0_3.rect t)).set ↔ _
  rw [View.set_slice_whole, Rect.mem_set_unit]
  exact Iff.rfl

/-- Row P lies in the block of point P / 1024: the 32 blocks cover the result. -/
theorem covered (i : S32768x1024.Idx) :
    ∃ t : Fin cfg0.N, (cfg0.win 3).flush t = true ∧ i ∈ ((cfg0.win 3).blk t).view.set := by
  have hi0 : (i 0).val < 32768 := (i 0).isLt
  have hi1 : (i 1).val < 1024 := (i 1).isLt
  have hN : cfg0.N = 32 := N_0
  have hlt : (i 0).val / 1024 < cfg0.N := by rw [hN]; omega
  obtain ⟨-, -, -, -, -, -, e30, e31⟩ := index_maps ⟨(i 0).val / 1024, hlt⟩
  refine ⟨⟨(i 0).val / 1024, hlt⟩, flush0_3 _, ?_⟩
  rw [mem_block]
  intro a
  match a with
  | ⟨0, _⟩ =>
    show win0_3.index ⟨(i 0).val / 1024, hlt⟩ (0 : Fin 2) * 1024 ≤ (i 0).val
      ∧ (i 0).val < win0_3.index ⟨(i 0).val / 1024, hlt⟩ (0 : Fin 2) * 1024 + 1024
    rw [e30]
    show (i 0).val / 1024 * 1024 ≤ (i 0).val ∧ (i 0).val < (i 0).val / 1024 * 1024 + 1024
    omega
  | ⟨1, _⟩ =>
    show win0_3.index ⟨(i 0).val / 1024, hlt⟩ (1 : Fin 2) * 1024 ≤ (i 1).val
      ∧ (i 1).val < win0_3.index ⟨(i 0).val / 1024, hlt⟩ (1 : Fin 2) * 1024 + 1024
    rw [e31]
    omega

/-- After the run the flattened result is `rows` of the arrays as the region finds them. -/
theorem final_rows (c : Dev nD) :
    (dats m 0 c).arrAt 3 cfg0.N = rows (V m c main_v0) (V m c main_v6) (V m c main_v1) :=
  (dats m 0 c).arrAt_eq_of_cover 3 _ (fun t _ => flushed_eq m c t) covered

end Cert.KernelSide

end
-- ==== Proof.HostPrefix.lean ====
/-
  The arrays the region finds, read at an index.

  Before the region the host flattens x to [32768, 1024] (row b * 4096 + s is x[b, s, ·]), lays the bias out as one
  row [1, 1024], and folds the rank-16 update into the weight:  Wf = W + c * (B · A),  B · A the [1024, 16] by
  [16, 1024] product, so  Wf[n, k] = W[n, k] + c * ∑ r < 16, B[n, r] * A[r, k]  (the change to the narrower float
  format that follows is the identity on the extended reals).
-/
import proofs.«138152_j52012053954937_2_alg».proof.Proof.Gen.KernelIdeal.Frame
import proofs.«138152_j52012053954937_2_alg».proof.Proof.Spec
import Idealize.ShloMosaic.Lib.StableHlo.Run
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx Idealize.ShloMosaic.StableHlo

namespace Cert.KernelSide

open Cert.KernelIdeal Cert.KernelIdeal.Gen

variable (m : (ℓ : Loc nD τ sig) → Buf (Elt Ideal) ℓ)

/-! ## The five argument arrays, as launched, with their vector types -/

abbrev argX (c : Dev nD) : FVec Ideal S8x4096x1024 .f32 := m ((c : Thread nD τ).loc main_arg0)
abbrev argW (c : Dev nD) : FVec Ideal S1024x1024 .f32 := m ((c : Thread nD τ).loc main_arg1)
abbrev argBias (c : Dev nD) : FVec Ideal S1024 .f32 := m ((c : Thread nD τ).loc main_arg2)
abbrev argA (c : Dev nD) : FVec Ideal S16x1024 .f32 := m ((c : Thread nD τ).loc main_arg3)
abbrev argB (c : Dev nD) : FVec Ideal S1024x16 .f32 := m ((c : Thread nD τ).loc main_arg4)

/-! ## The three arrays as terms of the arguments -/

/-- The flattened input. -/
theorem entry_x (c : Dev nD) :
    V m c main_v0 = shapeCast S32768x1024 (argX m c) shapeCasts_S8x4096x1024_S32768x1024 := by
  show StableHlo.after hostOps0 (fun b => m (c, b)) (Proc.devRef .tc main_v0) = _
  after_results
  rfl

/-- The bias as one row. -/
theorem entry_bias (c : Dev nD) :
    V m c main_v1 = shapeCast S1x1024 (argBias m c) shapeCasts_S1024_S1x1024 := by
  show StableHlo.after hostOps0 (fun b => m (c, b)) (Proc.devRef .tc main_v1) = _
  after_results
  rfl

/-- The folded weight. -/
theorem entry_weight (c : Dev nD) :
    V m c main_v6 = truncf .bf16
      (addf (argW m c)
        (mulf (broadcastInDim S1024x1024 ![] bcast_S_S1024x1024 (constant (F := Ideal) S_ .f32 0x3F800000#32))
          (Host.dotGeneral dot_S1024x16_S16x1024_S1024x1024_1_0_0_1_n_n none (argB m c) (argA m c))))
      bitsLt_bf16_f32 := by
  show StableHlo.after hostOps0 (fun b => m (c, b)) (Proc.devRef .tc main_v6) = _
  after_results

/-! ## The update's product, coordinate by coordinate -/

theorem upd_lhs_row (i : S1024x1024.Idx) (q : dot_S1024x16_S16x1024_S1024x1024_1_0_0_1_n_n.contr.Idx) : (dot_S1024x16_S16x1024_S1024x1024_1_0_0_1_n_n.lhsIdx i q 0).val = (i 0).val := by
  unfold DotDims.lhsIdx
  rw [dif_neg (show ¬(0 : Fin S1024x16.rank) ∈ dot_S1024x16_S16x1024_S1024x1024_1_0_0_1_n_n.lhsBatch by decide),
    dif_pos (show (0 : Fin S1024x16.rank) ∈ dot_S1024x16_S16x1024_S1024x1024_1_0_0_1_n_n.lhsNonContracting by decide)]
  rfl
theorem upd_lhs_contr (i : S1024x1024.Idx) (q : dot_S1024x16_S16x1024_S1024x1024_1_0_0_1_n_n.contr.Idx) : (dot_S1024x16_S16x1024_S1024x1024_1_0_0_1_n_n.lhsIdx i q 1).val = (q ⟨0, by decide⟩).val :=
  dot_S1024x16_S16x1024_S1024x1024_1_0_0_1_n_n.lhsIdx_val_of_single rfl i q
theorem upd_rhs_contr (i : S1024x1024.Idx) (q : dot_S1024x16_S16x1024_S1024x1024_1_0_0_1_n_n.contr.Idx) : (dot_S1024x16_S16x1024_S1024x1024_1_0_0_1_n_n.rhsIdx i q 0).val = (q ⟨0, by decide⟩).val :=
  dot_S1024x16_S16x1024_S1024x1024_1_0_0_1_n_n.rhsIdx_val_of_single rfl i q
theorem upd_rhs_col (i : S1024x1024.Idx) (q : dot_S1024x16_S16x1024_S1024x1024_1_0_0_1_n_n.contr.Idx) : (dot_S1024x16_S16x1024_S1024x1024_1_0_0_1_n_n.rhsIdx i q 1).val = (i 1).val := by
  unfold DotDims.rhsIdx
  rw [dif_neg (show ¬(1 : Fin S16x1024.rank) ∈ dot_S1024x16_S16x1024_S1024x1024_1_0_0_1_n_n.rhsBatch by decide),
    dif_pos (show (1 : Fin S16x1024.rank) ∈ dot_S1024x16_S16x1024_S1024x1024_1_0_0_1_n_n.rhsNonContracting by decide)]
  rfl

/-- The [1024, 16] by [16, 1024] product at (n, k): the sum over r of B[n, r] * A[r, k]. -/
theorem update_apply (Bm : FVec Ideal S1024x16 .f32) (Am : FVec Ideal S16x1024 .f32) (n k : Fin 1024) :
    Host.dotGeneral dot_S1024x16_S16x1024_S1024x1024_1_0_0_1_n_n none Bm Am (ix2 n k) = ∑ r : Fin 16, Bm (ix2 n r) * Am (ix2 r k) := by
  simp only [Host.dotGeneral]
  rw [Ideal.dotGeneral_apply, ← Equiv.sum_comp (contrEquiv1 dot_S1024x16_S16x1024_S1024x1024_1_0_0_1_n_n 16 rfl rfl).symm]
  refine Finset.sum_congr rfl fun r _ => ?_
  have hr := contrEquiv1_symm_val dot_S1024x16_S16x1024_S1024x1024_1_0_0_1_n_n 16 rfl rfl r
  have el : dot_S1024x16_S16x1024_S1024x1024_1_0_0_1_n_n.lhsIdx (ix2 n k) ((contrEquiv1 dot_S1024x16_S16x1024_S1024x1024_1_0_0_1_n_n 16 rfl rfl).symm r) = ix2 n r :=
    funext fun a => Fin.ext (by
      match a with
      | ⟨0, _⟩ => exact upd_lhs_row _ _
      | ⟨1, _⟩ => exact (upd_lhs_contr _ _).trans hr)
  have er : dot_S1024x16_S16x1024_S1024x1024_1_0_0_1_n_n.rhsIdx (ix2 n k) ((contrEquiv1 dot_S1024x16_S16x1024_S1024x1024_1_0_0_1_n_n 16 rfl rfl).symm r) = ix2 r k :=
    funext fun a => Fin.ext (by
      match a with
      | ⟨0, _⟩ => exact (upd_rhs_contr _ _).trans hr
      | ⟨1, _⟩ => exact upd_rhs_col _ _)
  rw [el, er]

/-! ## Each array at an index -/

/-- Row b * 4096 + s of the flattened input is x[b, s, ·]. -/
theorem entry_x_apply (c : Dev nD) (b : Fin 8) (s : Fin 4096) (k : Fin 1024) (P : Fin 32768)
    (hP : P.val = b.val * 4096 + s.val) :
    V m c main_v0 (ix2 P k) = argX m c (ix3 b s k) := by
  rw [entry_x]
  refine shapeCast_apply _ _ (ix2 P k) (ix3 b s k) ?_
  rw [Shape.rowMajor_val_three, Shape.rowMajor_val_two]
  show (b.val * 4096 + s.val) * 1024 + k.val = P.val * 1024 + k.val
  rw [hP]

/-- The bias row at column n is bias[n]. -/
theorem entry_bias_apply (c : Dev nD) (n : Fin 1024) :
    V m c main_v1 (ix2 (0 : Fin 1) n) = argBias m c (ix1 n) := by
  rw [entry_bias]
  refine shapeCast_apply _ _ (ix2 (0 : Fin 1) n) (ix1 n) ?_
  rw [Shape.rowMajor_val_one, Shape.rowMajor_val_two]
  show n.val = 0 * 1024 + n.val
  omega

/-- The folded weight at (n, k). -/
theorem entry_weight_apply (c : Dev nD) (n k : Fin 1024) :
    V m c main_v6 (ix2 n k)
      = argW m c (ix2 n k) + Cert.Spec.scale * ∑ r : Fin 16, argB m c (ix2 n r) * argA m c (ix2 r k) := by
  rw [entry_weight]
  show argW m c (ix2 n k) + Cert.Spec.scale * Host.dotGeneral dot_S1024x16_S16x1024_S1024x1024_1_0_0_1_n_n none (argB m c) (argA m c) (ix2 n k) = _
  rw [update_apply]

end Cert.KernelSide

end
-- ==== Proof.KernelRun.lean ====
/-
  The kernel's run, read: its result is the specification of the argument arrays.

  After the region the host reshapes the flattened [32768, 1024] result to [8, 4096, 1024]: entry (b, s, o) is the
  flattened entry (b * 4096 + s, o). That entry is  (∑ k, X[b*4096+s, k] * Wf[o, k]) + b1[0, o]  (the blocks'
  function), and the three arrays read at those indices are  x[b, s, k],  W[o, k] + c * ∑ r, B[o, r] * A[r, k]  and
  bias[o]: the specification's entry, with no use of finiteness.
-/
import proofs.«138152_j52012053954937_2_alg».proof.Proof.Gen.KernelIdeal.Frame
import proofs.«138152_j52012053954937_2_alg».proof.Proof.Blocks
import proofs.«138152_j52012053954937_2_alg».proof.Proof.HostPrefix
import proofs.«138152_j52012053954937_2_alg».proof.Proof.Spec
import Idealize.ShloMosaic.Lib.StableHlo.Run
import Idealize.ShloMosaic.Lib.Pipeline.Value

noncomputable section

open Idealize.ShloMosaic Idealize.ShloMosaic.TcCoe Idealize.SL.Sem Idealize.ShloMosaic.ValueIdx Idealize.ShloMosaic.StableHlo
open Idealize.ShloMosaic.Pipeline (Dat)

namespace Cert.KernelSide

open Cert.KernelIdeal Cert.KernelIdeal.Gen

variable (m : (ℓ : Loc nD τ sig) → Buf (Elt Ideal) ℓ) (ρ : Dev nD → PrngReg)

/-- The blocks' function at row P, column o. -/
theorem rows_apply (X : S32768x1024.Idx → EReal) (Wf : S1024x1024.Idx → EReal) (b1 : S1x1024.Idx → EReal)
    (P : Fin 32768) (o : Fin 1024) :
    rows X Wf b1 (ix2 P o) = (∑ k : Fin 1024, X (ix2 P k) * Wf (ix2 o k)) + b1 (ix2 (0 : Fin 1) o) := rfl

/-- The specification at (b, s, o). -/
theorem spec_apply (x : S8x4096x1024.Idx → EReal) (W : S1024x1024.Idx → EReal) (bias : S1024.Idx → EReal)
    (A : S16x1024.Idx → EReal) (B : S1024x16.Idx → EReal) (b : Fin 8) (s : Fin 4096) (o : Fin 1024) :
    Cert.Spec.G x W bias A B (ix3 b s o)
      = (∑ k : Fin 1024, x (ix3 b s k) * (W (ix2 o k) + Cert.Spec.scale * ∑ r : Fin 16, B (ix2 o r) * A (ix2 r k)))
        + bias (ix1 o) := rfl

/-- The reshaped blocks' function is the specification of the argument arrays, index by index. -/
theorem reshaped_eq_spec (c : Dev nD) :
    shapeCast S8x4096x1024 (rows (V m c main_v0) (V m c main_v6) (V m c main_v1)) shapeCasts_S32768x1024_S8x4096x1024
      = Cert.Spec.G (argX m c) (argW m c) (argBias m c) (argA m c) (argB m c) := by
  funext i
  obtain ⟨b, s, o, rfl⟩ : ∃ (b : Fin 8) (s : Fin 4096) (o : Fin 1024), i = ix3 b s o := ⟨i 0, i 1, i 2, eq_ix3 i⟩
  have hP : b.val * 4096 + s.val < 32768 := by have := b.isLt; have := s.isLt; omega
  refine (shapeCast_apply _ _ (ix3 b s o) (ix2 (⟨b.val * 4096 + s.val, hP⟩ : Fin 32768) o) ?_).trans ?_
  · rw [Shape.rowMajor_val_three, Shape.rowMajor_val_two]
    rfl
  · rw [rows_apply, spec_apply]
    refine congrArg₂ (· + ·) (Finset.sum_congr rfl fun k _ => ?_) (entry_bias_apply m c o)
    rw [entry_x_apply m c b s k ⟨b.val * 4096 + s.val, hP⟩ rfl, entry_weight_apply m c o k]

/-- After the frame run the result buffer holds the reshaped blocks' function. -/
theorem result_of_post (r : PUnit × MemSt nD τ sig (Elt Ideal))
    (h : Pipeline.FramePost cfgs (dats m) 0 (Pipeline.afterTail₀ cfgs (dats m) 0 (V0 m) [hostOps1]) r) (c : Dev nD) :
    r.2.mem ((c : Thread nD τ).loc main_v8)
      = shapeCast S8x4096x1024 (rows (V m c main_v0) (V m c main_v6) (V m c main_v1)) shapeCasts_S32768x1024_S8x4096x1024 := by
  refine ((h c).2 main_v8 (Pipeline.mem_restRefs_of main_v8 (by decide) (by decide))).trans ?_
  unfold Pipeline.afterTail₀
  show StableHlo.after hostOps1 _ (Proc.devRef .tc main_v8) = _
  after_results
  have e := (Pipeline.withArrays_arr spec0 launch0.win.arr_inj c (V0 m c) (fun w => (dats m 0 c).arrAt w cfg0.N) 3).trans
    (final_rows m c)
  exact congrArg (fun A : S32768x1024.Idx → EReal => shapeCast S8x4096x1024 A shapeCasts_S32768x1024_S8x4096x1024) e

/-- The kernel's run with its result named: every weakly fair execution terminates, the result buffer at the
    specification of the argument arrays, the arguments unchanged. -/
theorem run : θ_run defs (onTc (τ := τ) (main (F := Ideal))) ⟨m, fun _ => 0, ρ⟩ fun r => ∀ c : Dev nD,
      r.2.mem ((c : Thread nD τ).loc main_v8) = Cert.Spec.G (argX m c) (argW m c) (argBias m c) (argA m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(result_of_post m r h c).trans (reshaped_eq_spec m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelSide

end
-- ==== Proof.lean ====
/-
  The five claims for a linear layer with a rank-16 update (scaling c, the float word 0x3F800000).

  The kernel's program folds the update into the weight on the host, Wf = W + c * (B · A), flattens x to
  [32768, 1024], and at each of 32 grid points multiplies a block of 1024 rows of x against Wf (contracting the second
  axis of both) and adds the bias; the host reshapes the result back to [8, 4096, 1024]. The reference computes
  x · Wᵀ + bias and ((x · Aᵀ) · Bᵀ) * c separately and adds them.

  On the extended reals both results are, at entry (b, s, o),
      (∑ k, x[b,s,k] * (W[o,k] + c * ∑ r, B[o,r] * A[r,k])) + bias[o]
  (`Cert.Spec.G`): the kernel's without any assumption (re-indexing only), the reference's by distributing the product
  over the inner sum and exchanging the two sums, which holds because the precondition makes every entry a real
  number. The three frames are the generated ones (the reference's is its generated run with the result dropped);
  nothing was rewritten by the idealization, so `preserves` is trivial.
-/
import proofs.«138152_j52012053954937_2_alg».proof.Defs
import proofs.«138152_j52012053954937_2_alg».proof.Proof.Gen.Kernel
import proofs.«138152_j52012053954937_2_alg».proof.Proof.Gen.Kernel.Skeleton
import proofs.«138152_j52012053954937_2_alg».proof.Proof.Gen.Kernel.Launch
import proofs.«138152_j52012053954937_2_alg».proof.Proof.Gen.Kernel.Points
import proofs.«138152_j52012053954937_2_alg».proof.Proof.Gen.Kernel.Frame
import proofs.«138152_j52012053954937_2_alg».proof.Proof.Gen.KernelIdeal
import proofs.«138152_j52012053954937_2_alg».proof.Proof.Gen.KernelIdeal.Skeleton
import proofs.«138152_j52012053954937_2_alg».proof.Proof.Gen.KernelIdeal.Launch
import proofs.«138152_j52012053954937_2_alg».proof.Proof.Gen.KernelIdeal.Points
import proofs.«138152_j52012053954937_2_alg».proof.Proof.Gen.KernelIdeal.Frame
import proofs.«138152_j52012053954937_2_alg».proof.Proof.Gen.ReferenceIdeal
import proofs.«138152_j52012053954937_2_alg».proof.Proof.Gen.Pre_finite_inputs
import proofs.«138152_j52012053954937_2_alg».proof.Proof.Gen.ReferenceIdeal.Run
import proofs.«138152_j52012053954937_2_alg».proof.Proof.Gen.ReferenceIdeal.Read
import proofs.«138152_j52012053954937_2_alg».proof.Proof.Finite
import proofs.«138152_j52012053954937_2_alg».proof.Proof.RefSide
import proofs.«138152_j52012053954937_2_alg».proof.Proof.KernelRun
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at the specification of the (agreeing) argument arrays: the kernel's by
    `Cert.KernelSide.run`; the reference's by its generated run and stage, which is the specification because the
    precondition makes the entries real (`Cert.FiniteArgs.reals_of_pre`, `Cert.RefSide.result_eq`). -/
theorem algebraic : Cert.algebraic_KernelIdeal_ReferenceIdeal := by
  intro m ρ m' ρ' hpre hagree
  refine ⟨fun c => Cert.Spec.G (Cert.KernelSide.argX m c) (Cert.KernelSide.argW m c) (Cert.KernelSide.argBias m c)
    (Cert.KernelSide.argA m c) (Cert.KernelSide.argB m c), Cert.KernelSide.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4⟩ := hagree c
  rw [e0, e1, e2, e3, e4]
  obtain ⟨hx, hW, _, hA, hB⟩ := Cert.FiniteArgs.reals_of_pre _ _ _ _ _ (hpre c)
  exact (Cert.ReferenceIdeal.Read.val_main_v8_eq _ _ _ _ _).trans (Cert.RefSide.result_eq _ _ _ _ _ hx hW hA hB)

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
